-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S6x16384x4 : Shape := ⟨3, ![6, 16384, 4]⟩
abbrev S_ : Shape := ⟨0, ![]⟩

class Facts : Prop where
  bcast_S_S6x16384x4 : S_.BroadcastsInDim S6x16384x4 (![] : Fin 0 → Fin S6x16384x4.rank)
  reducesTo_S6x16384x4_S_d0_1_2 : S6x16384x4.ReducesTo [0, 1, 2] S_
  h_S_ : 0 < S_.numel

variable [Facts]

def fn {F : FTy → Type} [FloatOps F] (main_arg0 : FVec F S6x16384x4 .f32) : IVec S_ 1 :=
  let main_v0 : FVec F S6x16384x4 .f32 := Host.absf main_arg0
  let main_cst : FVec F S_ .f32 := constant S_ .f32 0x7F800000#32
  let main_v1 : FVec F S6x16384x4 .f32 := broadcastInDim S6x16384x4 ![] bcast_S_S6x16384x4 main_cst
  let main_v2 : IVec S6x16384x4 1 := cmpf .olt main_v0 main_v1
  let main_c : IVec S_ 1 := constantI S_ 1 1#1
  let main_v3 : IVec S_ 1 := (fun x v => Host.reduce IntOp.andi x v reducesTo_S6x16384x4_S_d0_1_2 h_S_) main_v2 main_c
  main_v3
-- ==== Kernel.lean ====
abbrev S6x16384x4 : Shape := ⟨3, ![6, 16384, 4]⟩
abbrev S16384x4096 : Shape := ⟨2, ![16384, 4096]⟩
abbrev S6x256x4 : Shape := ⟨3, ![6, 256, 4]⟩
abbrev S256x4096 : Shape := ⟨2, ![256, 4096]⟩
abbrev S1x256x4 : Shape := ⟨3, ![1, 256, 4]⟩
abbrev S256x4 : Shape := ⟨2, ![256, 4]⟩
abbrev S256x1 : Shape := ⟨2, ![256, 1]⟩
abbrev S256x16 : Shape := ⟨2, ![256, 16]⟩
abbrev S256x64 : Shape := ⟨2, ![256, 64]⟩
abbrev S256x256 : Shape := ⟨2, ![256, 256]⟩
abbrev S256x1024 : Shape := ⟨2, ![256, 1024]⟩

abbrev nBuf : Space → Nat
  | .hbm => 2
  | .vmem => 4
  | .smem => 0
  | _ => 0

abbrev bufTy : (tb : Table) → Fin (tcTables nBuf tb) → BufTy
  | .hbm, ⟨0, _⟩ => ⟨S6x16384x4, .f32⟩
  | .hbm, ⟨1, _⟩ => ⟨S16384x4096, .f32⟩
  | .local _ .vmem, ⟨0, _⟩ => ⟨S6x256x4, .f32⟩
  | .local _ .vmem, ⟨1, _⟩ => ⟨S6x256x4, .f32⟩
  | .local _ .vmem, ⟨2, _⟩ => ⟨S256x4096, .f32⟩
  | .local _ .vmem, ⟨3, _⟩ => ⟨S256x4096, .f32⟩
  | _, _ => ⟨S6x16384x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6x256x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S6x256x4_S1x256x4_5_0_0 : ∀ a, (![5, 0, 0] : Fin 3 → Nat) a + S1x256x4.size a ≤ S6x256x4.size a
  h_S1x256x4 : 0 < S1x256x4.numel
  shapeCasts_S1x256x4_S256x4 : S1x256x4.ShapeCasts S256x4
  inb_S6x256x4_S1x256x4_4_0_0 : ∀ a, (![4, 0, 0] : Fin 3 → Nat) a + S1x256x4.size a ≤ S6x256x4.size a
  slices_S256x4_o0_0_S256x1 : S256x4.Slices ![0, 0] S256x1
  broadcasts_S256x1_S256x4 : S256x1.Broadcasts S256x4
  slices_S256x4_o0_1_S256x1 : S256x4.Slices ![0, 1] S256x1
  slices_S256x4_o0_2_S256x1 : S256x4.Slices ![0, 2] S256x1
  slices_S256x4_o0_3_S256x1 : S256x4.Slices ![0, 3] S256x1
  concatenates_S256x4_S256x4_S256x4_S256x4_S256x16_d1 : Shape.Concatenates [S256x4, S256x4, S256x4, S256x4] S256x16 1
  inb_S6x256x4_S1x256x4_3_0_0 : ∀ a, (![3, 0, 0] : Fin 3 → Nat) a + S1x256x4.size a ≤ S6x256x4.size a
  broadcasts_S256x1_S256x16 : S256x1.Broadcasts S256x16
  concatenates_S256x16_S256x16_S256x16_S256x16_S256x64_d1 : Shape.Concatenates [S256x16, S256x16, S256x16, S256x16] S256x64 1
  inb_S6x256x4_S1x256x4_2_0_0 : ∀ a, (![2, 0, 0] : Fin 3 → Nat) a + S1x256x4.size a ≤ S6x256x4.size a
  broadcasts_S256x1_S256x64 : S256x1.Broadcasts S256x64
  concatenates_S256x64_S256x64_S256x64_S256x64_S256x256_d1 : Shape.Concatenates [S256x64, S256x64, S256x64, S256x64] S256x256 1
  inb_S6x256x4_S1x256x4_1_0_0 : ∀ a, (![1, 0, 0] : Fin 3 → Nat) a + S1x256x4.size a ≤ S6x256x4.size a
  broadcasts_S256x1_S256x256 : S256x1.Broadcasts S256x256
  concatenates_S256x256_S256x256_S256x256_S256x256_S256x1024_d1 : Shape.Concatenates [S256x256, S256x256, S256x256, S256x256] S256x1024 1
  inb_S6x256x4_S1x256x4_0_0_0 : ∀ a, (![0, 0, 0] : Fin 3 → Nat) a + S1x256x4.size a ≤ S6x256x4.size a
  broadcasts_S256x1_S256x1024 : S256x1.Broadcasts S256x1024
  concatenates_S256x1024_S256x1024_S256x1024_S256x1024_S256x4096_d1 : Shape.Concatenates [S256x1024, S256x1024, S256x1024, S256x1024] S256x4096 1
  inb_S256x4096_S256x4096_0_0 : ∀ a, (![0, 0] : Fin 2 → Nat) a + S256x4096.size a ≤ S256x4096.size a
  h_S256x4096 : 0 < S256x4096.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6x256x4.size a ≤ S6x16384x4.size a
  hwx0_0 : ∀ i : grid0.Coords, EltTy.bits .f32 = 32 ∨ (Rect.block (s := S6x16384x4) S6x256x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S16384x4096.size a
  hwx0_1 : ∀ i : grid0.Coords, EltTy.bits .f32 = 32 ∨ (Rect.block (s := S16384x4096) S256x4096.size (cc0_transform_1 i) (hinb0_1 i)).WholeWords (EltTy.packing .f32)

variable [Facts₀]

abbrev win0_0 : Pipeline.Window sig grid0 :=
  Pipeline.Window.ofSpec (Memref.whole main_arg0) S6x256x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S6x16384x4 : Shape := ⟨3, ![6, 16384, 4]⟩
abbrev S1x16384x4 : Shape := ⟨3, ![1, 16384, 4]⟩
abbrev S16384x4 : Shape := ⟨2, ![16384, 4]⟩
abbrev S16384x4x1 : Shape := ⟨3, ![16384, 4, 1]⟩
abbrev S16384x1x4 : Shape := ⟨3, ![16384, 1, 4]⟩
abbrev S16384x4x4 : Shape := ⟨3, ![16384, 4, 4]⟩
abbrev S16384x16 : Shape := ⟨2, ![16384, 16]⟩
abbrev S16384x16x1 : Shape := ⟨3, ![16384, 16, 1]⟩
abbrev S16384x16x4 : Shape := ⟨3, ![16384, 16, 4]⟩
abbrev S16384x64 : Shape := ⟨2, ![16384, 64]⟩
abbrev S16384x64x1 : Shape := ⟨3, ![16384, 64, 1]⟩
abbrev S16384x64x4 : Shape := ⟨3, ![16384, 64, 4]⟩
abbrev S16384x256 : Shape := ⟨2, ![16384, 256]⟩
abbrev S16384x256x1 : Shape := ⟨3, ![16384, 256, 1]⟩
abbrev S16384x256x4 : Shape := ⟨3, ![16384, 256, 4]⟩
abbrev S16384x1024 : Shape := ⟨2, ![16384, 1024]⟩
abbrev S16384x1024x1 : Shape := ⟨3, ![16384, 1024, 1]⟩
abbrev S16384x1024x4 : Shape := ⟨3, ![16384, 1024, 4]⟩
abbrev S16384x4096 : Shape := ⟨2, ![16384, 4096]⟩

abbrev nBuf : Space → Nat
  | .hbm => 43
  | .vmem => 0
  | .smem => 0
  | _ => 0

abbrev bufTy : (tb : Table) → Fin (tcTables nBuf tb) → BufTy
  | .hbm, ⟨0, _⟩ => ⟨S6x16384x4, .f32⟩
  | .hbm, ⟨1, _⟩ => ⟨S1x16384x4, .f32⟩
  | .hbm, ⟨2, _⟩ => ⟨S16384x4, .f32⟩
  | .hbm, ⟨3, _⟩ => ⟨S16384x4x1, .f32⟩
  | .hbm, ⟨4, _⟩ => ⟨S1x16384x4, .f32⟩
  | .hbm, ⟨5, _⟩ => ⟨S16384x4, .f32⟩
  | .hbm, ⟨6, _⟩ => ⟨S16384x1x4, .f32⟩
  | .hbm, ⟨7, _⟩ => ⟨S16384x4x4, .f32⟩
  | .hbm, ⟨8, _⟩ => ⟨S16384x4x4, .f32⟩
  | .hbm, ⟨9, _⟩ => ⟨S16384x4x4, .f32⟩
  | .hbm, ⟨10, _⟩ => ⟨S16384x16, .f32⟩
  | .hbm, ⟨11, _⟩ => ⟨S16384x16x1, .f32⟩
  | .hbm, ⟨12, _⟩ => ⟨S1x16384x4, .f32⟩
  | .hbm, ⟨13, _⟩ => ⟨S16384x4, .f32⟩
  | .hbm, ⟨14, _⟩ => ⟨S16384x1x4, .f32⟩
  | .hbm, ⟨15, _⟩ => ⟨S16384x16x4, .f32⟩
  | .hbm, ⟨16, _⟩ => ⟨S16384x16x4, .f32⟩
  | .hbm, ⟨17, _⟩ => ⟨S16384x16x4, .f32⟩
  | .hbm, ⟨18, _⟩ => ⟨S16384x64, .f32⟩
  | .hbm, ⟨19, _⟩ => ⟨S16384x64x1, .f32⟩
  | .hbm, ⟨20, _⟩ => ⟨S1x16384x4, .f32⟩
  | .hbm, ⟨21, _⟩ => ⟨S16384x4, .f32⟩
  | .hbm, ⟨22, _⟩ => ⟨S16384x1x4, .f32⟩
  | .hbm, ⟨23, _⟩ => ⟨S16384x64x4, .f32⟩
  | .hbm, ⟨24, _⟩ => ⟨S16384x64x4, .f32⟩
  | .hbm, ⟨25, _⟩ => ⟨S16384x64x4, .f32⟩
  | .hbm, ⟨26, _⟩ => ⟨S16384x256, .f32⟩
  | .hbm, ⟨27, _⟩ => ⟨S16384x256x1, .f32⟩
  | .hbm, ⟨28, _⟩ => ⟨S1x16384x4, .f32⟩
  | .hbm, ⟨29, _⟩ => ⟨S16384x4, .f32⟩
  | .hbm, ⟨30, _⟩ => ⟨S16384x1x4, .f32⟩
  | .hbm, ⟨31, _⟩ => ⟨S16384x256x4, .f32⟩
  | .hbm, ⟨32, _⟩ => ⟨S16384x256x4, .f32⟩
  | .hbm, ⟨33, _⟩ => ⟨S16384x256x4, .f32⟩
  | .hbm, ⟨34, _⟩ => ⟨S16384x1024, .f32⟩
  | .hbm, ⟨35, _⟩ => ⟨S16384x1024x1, .f32⟩
  | .hbm, ⟨36, _⟩ => ⟨S1x16384x4, .f32⟩
  | .hbm, ⟨37, _⟩ => ⟨S16384x4, .f32⟩
  | .hbm, ⟨38, _⟩ => ⟨S16384x1x4, .f32⟩
  | .hbm, ⟨39, _⟩ => ⟨S16384x1024x4, .f32⟩
  | .hbm, ⟨40, _⟩ => ⟨S16384x1024x4, .f32⟩
  | .hbm, ⟨41, _⟩ => ⟨S16384x1024x4, .f32⟩
  | .hbm, ⟨42, _⟩ => ⟨S16384x4096, .f32⟩
  | _, _ => ⟨S6x16384x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_v29 : Ref sig .tc := ⟨.hbm, 30, rfl⟩
abbrev main_v30 : Ref sig .tc := ⟨.hbm, 31, rfl⟩
abbrev main_v31 : Ref sig .tc := ⟨.hbm, 32, rfl⟩
abbrev main_v32 : Ref sig .tc := ⟨.hbm, 33, rfl⟩
abbrev main_v33 : Ref sig .tc := ⟨.hbm, 34, rfl⟩
abbrev main_v34 : Ref sig .tc := ⟨.hbm, 35, rfl⟩
abbrev main_v35 : Ref sig .tc := ⟨.hbm, 36, rfl⟩
abbrev main_v36 : Ref sig .tc := ⟨.hbm, 37, rfl⟩
abbrev main_v37 : Ref sig .tc := ⟨.hbm, 38, rfl⟩
abbrev main_v38 : Ref sig .tc := ⟨.hbm, 39, rfl⟩
abbrev main_v39 : Ref sig .tc := ⟨.hbm, 40, rfl⟩
abbrev main_v40 : Ref sig .tc := ⟨.hbm, 41, rfl⟩
abbrev main_v41 : Ref sig .tc := ⟨.hbm, 42, rfl⟩

abbrev nD : Nat := 1
abbrev τ : Topo := Topo.v7x

variable {F : FTy → Type} [FloatOps F]

class Facts₀ : Prop where
  slices_S6x16384x4_S1x16384x4_0_0_0 : S6x16384x4.Slices ![0, 0, 0] S1x16384x4
  shapeCasts_S1x16384x4_S16384x4 : S1x16384x4.ShapeCasts S16384x4
  bcast_S16384x4_S16384x4x1_0_1 : S16384x4.BroadcastsInDim S16384x4x1 (![0, 1] : Fin 2 → Fin S16384x4x1.rank)
  slices_S6x16384x4_S1x16384x4_1_0_0 : S6x16384x4.Slices ![1, 0, 0] S1x16384x4
  bcast_S16384x4_S16384x1x4_0_2 : S16384x4.BroadcastsInDim S16384x1x4 (![0, 2] : Fin 2 → Fin S16384x1x4.rank)
  bcast_S16384x4x1_S16384x4x4_0_1_2 : S16384x4x1.BroadcastsInDim S16384x4x4 (![0, 1, 2] : Fin 3 → Fin S16384x4x4.rank)
  bcast_S16384x1x4_S16384x4x4_0_1_2 : S16384x1x4.BroadcastsInDim S16384x4x4 (![0, 1, 2] : Fin 3 → Fin S16384x4x4.rank)
  shapeCasts_S16384x4x4_S16384x16 : S16384x4x4.ShapeCasts S16384x16
  bcast_S16384x16_S16384x16x1_0_1 : S16384x16.BroadcastsInDim S16384x16x1 (![0, 1] : Fin 2 → Fin S16384x16x1.rank)
  slices_S6x16384x4_S1x16384x4_2_0_0 : S6x16384x4.Slices ![2, 0, 0] S1x16384x4
  bcast_S16384x16x1_S16384x16x4_0_1_2 : S16384x16x1.BroadcastsInDim S16384x16x4 (![0, 1, 2] : Fin 3 → Fin S16384x16x4.rank)
  bcast_S16384x1x4_S16384x16x4_0_1_2 : S16384x1x4.BroadcastsInDim S16384x16x4 (![0, 1, 2] : Fin 3 → Fin S16384x16x4.rank)
  shapeCasts_S16384x16x4_S16384x64 : S16384x16x4.ShapeCasts S16384x64
  bcast_S16384x64_S16384x64x1_0_1 : S16384x64.BroadcastsInDim S16384x64x1 (![0, 1] : Fin 2 → Fin S16384x64x1.rank)
  slices_S6x16384x4_S1x16384x4_3_0_0 : S6x16384x4.Slices ![3, 0, 0] S1x16384x4
  bcast_S16384x64x1_S16384x64x4_0_1_2 : S16384x64x1.BroadcastsInDim S16384x64x4 (![0, 1, 2] : Fin 3 → Fin S16384x64x4.rank)
  bcast_S16384x1x4_S16384x64x4_0_1_2 : S16384x1x4.BroadcastsInDim S16384x64x4 (![0, 1, 2] : Fin 3 → Fin S16384x64x4.rank)
  shapeCasts_S16384x64x4_S16384x256 : S16384x64x4.ShapeCasts S16384x256
  bcast_S16384x256_S16384x256x1_0_1 : S16384x256.BroadcastsInDim S16384x256x1 (![0, 1] : Fin 2 → Fin S16384x256x1.rank)
  slices_S6x16384x4_S1x16384x4_4_0_0 : S6x16384x4.Slices ![4, 0, 0] S1x16384x4
  bcast_S16384x256x1_S16384x256x4_0_1_2 : S16384x256x1.BroadcastsInDim S16384x256x4 (![0, 1, 2] : Fin 3 → Fin S16384x256x4.rank)
  bcast_S16384x1x4_S16384x256x4_0_1_2 : S16384x1x4.BroadcastsInDim S16384x256x4 (![0, 1, 2] : Fin 3 → Fin S16384x256x4.rank)
  shapeCasts_S16384x256x4_S16384x1024 : S16384x256x4.ShapeCasts S16384x1024
  bcast_S16384x1024_S16384x1024x1_0_1 : S16384x1024.BroadcastsInDim S16384x1024x1 (![0, 1] : Fin 2 → Fin S16384x1024x1.rank)
  slices_S6x16384x4_S1x16384x4_5_0_0 : S6x16384x4.Slices ![5, 0, 0] S1x16384x4
  bcast_S16384x1024x1_S16384x1024x4_0_1_2 : S16384x1024x1.BroadcastsInDim S16384x1024x4 (![0, 1, 2] : Fin 3 → Fin S16384x1024x4.rank)
  bcast_S16384x1x4_S16384x1024x4_0_1_2 : S16384x1x4.BroadcastsInDim S16384x1024x4 (![0, 1, 2] : Fin 3 → Fin S16384x1024x4.rank)
  shapeCasts_S16384x1024x4_S16384x4096 : S16384x1024x4.ShapeCasts S16384x4096

variable [Facts₀]

class Facts : Prop extends Facts₀ where

variable [Facts]
-- ==== Proof.LibColumnScale.lean ====
/-
  Row-scaled copies of a matrix laid side by side.

  Take a matrix `acc` with `W` columns and a matrix `mv` with four columns, both with `R` rows. For each column `s` of `mv`
  form the copy of `acc` whose row `r` is multiplied by the entry `mv r s` (the column is cut out, spread over `W` columns and
  multiplied in entry by entry), and lay the four copies side by side, `s = 0` leftmost. The result has `4 * W` columns and its
  entry `(r, j)` is `mv r (j / W) * acc r (j % W)`: the quotient of the column number names the copy, the remainder the
  column inside it. Stated over the extended reals; nothing is assumed finite.
-/
import Idealize.ShloMosaic.PureOps.Ideal
import Idealize.ShloMosaic.Lib.ValueIdx
import Idealize.ShloMosaic.Lib.Pipeline.Value

noncomputable section

namespace Cert.Lib.ColumnScale

open Idealize.ShloMosaic Idealize.ShloMosaic.ValueIdx

/-- The shape of a matrix with `R` rows and `W` columns. -/
abbrev Mat (R W : Nat) : Shape := ⟨2, ![R, W]⟩

variable {R W W4 : Nat}

/-- Column `s` of the four-column matrix `mv`, spread over `W` columns, times `acc` entry by entry: row `r` of `acc`
    multiplied by `mv r s`. -/
def scaled (mv : FVec Ideal (Mat R 4) .f32) (acc : FVec Ideal (Mat R W) .f32) (s : Nat)
    (hs : (Mat R 4).Slices ![0, s] (Mat R 1)) (hb : (Mat R 1).Broadcasts (Mat R W)) : FVec Ideal (Mat R W) .f32 :=
  mulf (broadcastTo (Mat R W) (extractStridedSlice (Mat R 1) ![0, s] mv hs) hb) acc

/-- Entry `(r, q)` of the scaled copy is `mv r s * acc r q`. -/
theorem scaled_apply (mv : FVec Ideal (Mat R 4) .f32) (acc : FVec Ideal (Mat R W) .f32) (s : Nat) (hs4 : s < 4)
    (hs : (Mat R 4).Slices ![0, s] (Mat R 1)) (hb : (Mat R 1).Broadcasts (Mat R W)) (r : Fin R) (q : Fin W) :
    scaled mv acc s hs hb (ix2 r q) = mv (ix2 r ⟨s, hs4⟩) * acc (ix2 r q) := by
  show broadcastTo (Mat R W) (extractStridedSlice (Mat R 1) ![0, s] mv hs) hb (ix2 r q) * acc (ix2 r q) = _
  refine congrArg (· * acc (ix2 r q)) ?_
  -- the spread column at (r, q) is the column at (r, 0), which is `mv` at (r, s)
  refine (broadcastTo_apply _ hb (ix2 r q) (ix2 r (0 : Fin 1)) (fun a => ?_)).trans
    (extractStridedSlice_apply ![0, s] mv hs (ix2 r (0 : Fin 1)) (ix2 r ⟨s, hs4⟩) (fun a => ?_))
  · match a with
    | ⟨0, _⟩ =>
      show r.val = if R = 1 then 0 else r.val
      have hr := r.isLt
      split
      · omega
      · rfl
    | ⟨1, _⟩ => show (0 : Nat) = if (1 : Nat) = 1 then 0 else _; rw [if_pos rfl]
  · match a with
    | ⟨0, _⟩ => show r.val = 0 + r.val; omega
    | ⟨1, _⟩ => show s = s + 0; omega

/-- The four scaled copies side by side, column `0` of `mv` leftmost. -/
def sideBySide (mv : FVec Ideal (Mat R 4) .f32) (acc : FVec Ideal (Mat R W) .f32)
    (hs0 : (Mat R 4).Slices ![0, 0] (Mat R 1)) (hs1 : (Mat R 4).Slices ![0, 1] (Mat R 1))
    (hs2 : (Mat R 4).Slices ![0, 2] (Mat R 1)) (hs3 : (Mat R 4).Slices ![0, 3] (Mat R 1))
    (hb : (Mat R 1).Broadcasts (Mat R W))
    (hc : Shape.Concatenates [Mat R W, Mat R W, Mat R W, Mat R W] (Mat R W4) 1) : FVec Ideal (Mat R W4) .f32 :=
  concatenate (Mat R W4) 1 [⟨Mat R W, scaled mv acc 0 hs0 hb⟩, ⟨Mat R W, scaled mv acc 1 hs1 hb⟩,
    ⟨Mat R W, scaled mv acc 2 hs2 hb⟩, ⟨Mat R W, scaled mv acc 3 hs3 hb⟩] hc

/-- Entry `(r, j)` of the side-by-side result: the copy is named by `j / W`, the column inside it by `j % W`. -/
theorem sideBySide_apply (hW : W4 = 4 * W) (hpos : 0 < W)
    (mv : FVec Ideal (Mat R 4) .f32) (acc : FVec Ideal (Mat R W) .f32)
    (hs0 : (Mat R 4).Slices ![0, 0] (Mat R 1)) (hs1 : (Mat R 4).Slices ![0, 1] (Mat R 1))
    (hs2 : (Mat R 4).Slices ![0, 2] (Mat R 1)) (hs3 : (Mat R 4).Slices ![0, 3] (Mat R 1))
    (hb : (Mat R 1).Broadcasts (Mat R W))
    (hc : Shape.Concatenates [Mat R W, Mat R W, Mat R W, Mat R W] (Mat R W4) 1) (r : Fin R) (j : Fin W4) :
    sideBySide mv acc hs0 hs1 hs2 hs3 hb hc (ix2 r j)
      = mv (ix2 r ⟨j.val / W, Nat.div_lt_of_lt_mul (by have := j.isLt; omega)⟩)
        * acc (ix2 r ⟨j.val % W, Nat.mod_lt _ hpos⟩) := by
  have hq : j.val / W < 4 := Nat.div_lt_of_lt_mul (by have := j.isLt; omega)
  -- the four copies as one family over the column of `mv`
  let hs : ∀ n : Fin 4, (Mat R 4).Slices ![0, n.val] (Mat R 1) := fun n =>
    match n with | ⟨0, _⟩ => hs0 | ⟨1, _⟩ => hs1 | ⟨2, _⟩ => hs2 | ⟨3, _⟩ => hs3
  let f : Fin 4 → ((Mat R W).Idx → Ideal .f32) := fun n => scaled mv acc n.val (hs n) hb
  refine Eq.trans (show _ = concatenate (Mat R W4) 1
      (List.ofFn fun n : Fin 4 => (⟨Mat R W, f n⟩ : (s : Shape) × (s.Idx → Ideal .f32))) hc (ix2 r j) from rfl) ?_
  refine (concatenate_ofFn_apply (t := Mat R W4) (s₁ := Mat R W) (1 : Fin 2) f hc rfl W rfl (ix2 r j) ⟨j.val / W, hq⟩ rfl
    (ix2 r ⟨j.val % W, Nat.mod_lt _ hpos⟩) rfl (fun b hb' => ?_)).trans ?_
  · match b, hb' with
    | ⟨0, _⟩, _ => rfl
    | ⟨1, _⟩, hb' => exact absurd rfl hb'
  · exact scaled_apply mv acc (j.val / W) hq _ hb r ⟨j.val % W, Nat.mod_lt _ hpos⟩

end Cert.Lib.ColumnScale

end
-- ==== Proof.KernelRow.lean ====
/-
  One row of the kernel's block, read at a column.

  The body starts from variable 5's memberships (four columns) and, for variables 4, 3, 2, 1, 0 in turn, replaces the
  running matrix by four copies of it laid side by side, copy `s` scaled row by row by the variable's membership in set `s`.
  Each step multiplies the number of columns by four, so column `j` of the final 4096 is reached by peeling quotients and
  remainders by 1024, 256, 64, 16, 4: the entry is `p0 (j / 1024) * (p1 (j % 1024 / 256) * ( … * p5 (j % 4)))` on the row's
  six membership vectors.
-/
import proofs.«124794_j11647951306867_2_alg».proof.Proof.Gen.KernelIdeal.Frame
import proofs.«124794_j11647951306867_2_alg».proof.Proof.LibColumnScale
import Idealize.ShloMosaic.Lib.Pipeline.Value

noncomputable section

namespace Cert.KernelIdeal.Row

open Cert.KernelIdeal Cert.KernelIdeal.Gen Idealize.ShloMosaic Idealize.ShloMosaic.ValueIdx Cert.Lib.ColumnScale

/-- One variable's plane of the block, a [1, 256, 4] array, seen as a 256 × 4 matrix. -/
abbrev flat (P : Vec Ideal S1x256x4 .f32) : FVec Ideal S256x4 .f32 := shapeCast S256x4 P shapeCasts_S1x256x4_S256x4

/-- The matrix's entry (r, s) is the plane's entry (0, r, s). -/
theorem flat_apply (P : Vec Ideal S1x256x4 .f32) (r : Fin 256) (s : Fin 4) :
    flat P (ix2 r s) = P (ix3 (0 : Fin 1) r s) := by
  refine (shapeCast_dropUnit_apply ![256, 4] P shapeCasts_S1x256x4_S256x4 (ix2 r s)).trans (congrArg P ?_)
  funext a
  match a with
  | ⟨0, _⟩ => rfl
  | ⟨1, _⟩ => rfl
  | ⟨2, _⟩ => rfl

/-- The first part of the body (variables 5, 4, 3, 2) is three side-by-side steps from variable 5's matrix. -/
theorem pay2_eq (v0 v2 v17 v32 : Vec Ideal S1x256x4 .f32) :
    k0_pay2 v0 v2 v17 v32
      = sideBySide (flat v32)
          (sideBySide (flat v17)
            (sideBySide (flat v2) (flat v0)
              slices_S256x4_o0_0_S256x1 slices_S256x4_o0_1_S256x1 slices_S256x4_o0_2_S256x1 slices_S256x4_o0_3_S256x1
              broadcasts_S256x1_S256x4 concatenates_S256x4_S256x4_S256x4_S256x4_S256x16_d1)
            slices_S256x4_o0_0_S256x1 slices_S256x4_o0_1_S256x1 slices_S256x4_o0_2_S256x1 slices_S256x4_o0_3_S256x1
            broadcasts_S256x1_S256x16 concatenates_S256x16_S256x16_S256x16_S256x16_S256x64_d1)
          slices_S256x4_o0_0_S256x1 slices_S256x4_o0_1_S256x1 slices_S256x4_o0_2_S256x1 slices_S256x4_o0_3_S256x1
          broadcasts_S256x1_S256x64 concatenates_S256x64_S256x64_S256x64_S256x64_S256x256_d1 := rfl

/-- The rest of the body (variables 1, 0) is two more steps from the first part's matrix. -/
theorem pay1_eq (v46 : FVec Ideal S256x256 .f32) (v47 v62 : Vec Ideal S1x256x4 .f32) :
    k0_pay1 v46 v47 v62
      = sideBySide (flat v62)
          (sideBySide (flat v47) v46
            slices_S256x4_o0_0_S256x1 slices_S256x4_o0_1_S256x1 slices_S256x4_o0_2_S256x1 slices_S256x4_o0_3_S256x1
            broadcasts_S256x1_S256x256 concatenates_S256x256_S256x256_S256x256_S256x256_S256x1024_d1)
          slices_S256x4_o0_0_S256x1 slices_S256x4_o0_1_S256x1 slices_S256x4_o0_2_S256x1 slices_S256x4_o0_3_S256x1
          broadcasts_S256x1_S256x1024 concatenates_S256x1024_S256x1024_S256x1024_S256x1024_S256x4096_d1 := rfl

/-- Entry (r, j) of the stored block, from the six planes the body loads (`P v` variable `v`'s): quotients and remainders
    of the column number peel the five steps. -/
theorem pay_apply (P0 P1 P2 P3 P4 P5 : Vec Ideal S1x256x4 .f32) (r : Fin 256) (j : Fin 4096) :
    k0_pay1 (k0_pay2 P5 P4 P3 P2) P1 P0 (ix2 r j)
      = P0 (ix3 (0 : Fin 1) r ⟨j.val / 1024, by have := j.isLt; omega⟩)
        * (P1 (ix3 (0 : Fin 1) r ⟨j.val % 1024 / 256, by omega⟩)
          * (P2 (ix3 (0 : Fin 1) r ⟨j.val % 1024 % 256 / 64, by omega⟩)
            * (P3 (ix3 (0 : Fin 1) r ⟨j.val % 1024 % 256 % 64 / 16, by omega⟩)
              * (P4 (ix3 (0 : Fin 1) r ⟨j.val % 1024 % 256 % 64 % 16 / 4, by omega⟩)
                * P5 (ix3 (0 : Fin 1) r ⟨j.val % 1024 % 256 % 64 % 16 % 4, by omega⟩))))) := by
  rw [pay1_eq, pay2_eq]
  rw [sideBySide_apply (W := 1024) (W4 := 4096) rfl (by decide), sideBySide_apply (W := 256) (W4 := 1024) rfl (by decide),
    sideBySide_apply (W := 64) (W4 := 256) rfl (by decide), sideBySide_apply (W := 16) (W4 := 64) rfl (by decide),
    sideBySide_apply (W := 4) (W4 := 16) rfl (by decide)]
  simp only [flat_apply]

end Cert.KernelIdeal.Row

/-! ## The block the body leaves, from the block it was given

The body's six loads read the six variables' planes of the input block, and its one store writes the whole output block,
so entry (r, j) of the output block is the six-fold product over row `r` of the input block. -/

namespace Cert.KernelIdeal.Block

open Cert.KernelIdeal Cert.KernelIdeal.Gen Idealize.ShloMosaic Idealize.ShloMosaic.ValueIdx

/-- The store's rectangle starts at the block's origin. -/
theorem origin : (![0, 0] : Fin 2 → Nat) = fun _ => 0 := funext fun a => by fin_cases a <;> rfl

/-- The load of variable 0's plane, at (0, r, s), is the block at (0, r, s). -/
theorem ld_plane0 (X : Vec Ideal S6x256x4 .f32) (r : Fin 256) (s : Fin 4) :
    View.ld X r0_5 (ix3 (0 : Fin 1) r s) = X (ix3 (0 : Fin 6) r s) := by
  show X (r0_5.idx (ix3 (0 : Fin 1) r s)) = _
  refine congrArg X (funext fun a => Fin.ext ?_)
  match a with
  | ⟨0, _⟩ => rfl
  | ⟨1, _⟩ => show 0 + 1 * r.val = r.val; omega
  | ⟨2, _⟩ => show 0 + 1 * s.val = s.val; omega

/-- The load of variable 1's plane, at (0, r, s), is the block at (1, r, s). -/
theorem ld_plane1 (X : Vec Ideal S6x256x4 .f32) (r : Fin 256) (s : Fin 4) :
    View.ld X r0_4 (ix3 (0 : Fin 1) r s) = X (ix3 (1 : Fin 6) r s) := by
  show X (r0_4.idx (ix3 (0 : Fin 1) r s)) = _
  refine congrArg X (funext fun a => Fin.ext ?_)
  match a with
  | ⟨0, _⟩ => rfl
  | ⟨1, _⟩ => show 0 + 1 * r.val = r.val; omega
  | ⟨2, _⟩ => show 0 + 1 * s.val = s.val; omega

/-- The load of variable 2's plane, at (0, r, s), is the block at (2, r, s). -/
theorem ld_plane2 (X : Vec Ideal S6x256x4 .f32) (r : Fin 256) (s : Fin 4) :
    View.ld X r0_3 (ix3 (0 : Fin 1) r s) = X (ix3 (2 : Fin 6) r s) := by
  show X (r0_3.idx (ix3 (0 : Fin 1) r s)) = _
  refine congrArg X (funext fun a => Fin.ext ?_)
  match a with
  | ⟨0, _⟩ => rfl
  | ⟨1, _⟩ => show 0 + 1 * r.val = r.val; omega
  | ⟨2, _⟩ => show 0 + 1 * s.val = s.val; omega

/-- The load of variable 3's plane, at (0, r, s), is the block at (3, r, s). -/
theorem ld_plane3 (X : Vec Ideal S6x256x4 .f32) (r : Fin 256) (s : Fin 4) :
    View.ld X r0_2 (ix3 (0 : Fin 1) r s) = X (ix3 (3 : Fin 6) r s) := by
  show X (r0_2.idx (ix3 (0 : Fin 1) r s)) = _
  refine congrArg X (funext fun a => Fin.ext ?_)
  match a with
  | ⟨0, _⟩ => rfl
  | ⟨1, _⟩ => show 0 + 1 * r.val = r.val; omega
  | ⟨2, _⟩ => show 0 + 1 * s.val = s.val; omega

/-- The load of variable 4's plane, at (0, r, s), is the block at (4, r, s). -/
theorem ld_plane4 (X : Vec Ideal S6x256x4 .f32) (r : Fin 256) (s : Fin 4) :
    View.ld X r0_1 (ix3 (0 : Fin 1) r s) = X (ix3 (4 : Fin 6) r s) := by
  show X (r0_1.idx (ix3 (0 : Fin 1) r s)) = _
  refine congrArg X (funext fun a => Fin.ext ?_)
  match a with
  | ⟨0, _⟩ => rfl
  | ⟨1, _⟩ => show 0 + 1 * r.val = r.val; omega
  | ⟨2, _⟩ => show 0 + 1 * s.val = s.val; omega

/-- The load of variable 5's plane, at (0, r, s), is the block at (5, r, s). -/
theorem ld_plane5 (X : Vec Ideal S6x256x4 .f32) (r : Fin 256) (s : Fin 4) :
    View.ld X r0_0 (ix3 (0 : Fin 1) r s) = X (ix3 (5 : Fin 6) r s) := by
  show X (r0_0.idx (ix3 (0 : Fin 1) r s)) = _
  refine congrArg X (funext fun a => Fin.ext ?_)
  match a with
  | ⟨0, _⟩ => rfl
  | ⟨1, _⟩ => show 0 + 1 * r.val = r.val; omega
  | ⟨2, _⟩ => show 0 + 1 * s.val = s.val; omega

/-- Entry (r, j) of the block the body stores, from the block `X` it loads from. -/
theorem out_apply (X : Vec Ideal S6x256x4 .f32) (r : Fin 256) (j : Fin 4096) :
    out0_1 X (ix2 r j)
      = X (ix3 (0 : Fin 6) r ⟨j.val / 1024, by have := j.isLt; omega⟩)
        * (X (ix3 (1 : Fin 6) r ⟨j.val % 1024 / 256, by omega⟩)
          * (X (ix3 (2 : Fin 6) r ⟨j.val % 1024 % 256 / 64, by omega⟩)
            * (X (ix3 (3 : Fin 6) r ⟨j.val % 1024 % 256 % 64 / 16, by omega⟩)
              * (X (ix3 (4 : Fin 6) r ⟨j.val % 1024 % 256 % 64 % 16 / 4, by omega⟩)
                * X (ix3 (5 : Fin 6) r ⟨j.val % 1024 % 256 % 64 % 16 % 4, by omega⟩))))) := by
  unfold out0_1
  rw [View.canon_unit_zero origin, Row.pay_apply, ld_plane0, ld_plane1, ld_plane2, ld_plane3, ld_plane4, ld_plane5]

end Cert.KernelIdeal.Block

end
-- ==== Proof.Spec.lean ====
/-
  The rule activations, as one function of the membership array.

  There are six variables, each with four fuzzy sets, and 16384 samples; `x v n s` is the membership of sample `n` in set `s`
  of variable `v`. A rule picks one set per variable, so there are 4^6 = 4096 rules, and rule `j` picks, for variable `v`,
  the set numbered by the base-4 digit of `j` at place `v` (variable 0 the most significant digit, variable 5 the least).
  The activation of rule `j` on sample `n` is the product of the six memberships picked. Both programs compute this product;
  they differ only in how they bracket it and in how they spell the digits, which is what the two lemmas at the end are for.
-/
import Idealize.ShloMosaic.PureOps.Ideal
import Idealize.ShloMosaic.Lib.ValueIdx

noncomputable section

namespace Cert.Antecedents

open Idealize.ShloMosaic Idealize.ShloMosaic.ValueIdx

/-- The membership array: variable, sample, set. -/
abbrev Memberships : Shape := ⟨3, ![6, 16384, 4]⟩
/-- The activation array: sample, rule. -/
abbrev Rules : Shape := ⟨2, ![16384, 4096]⟩

/-- The base-4 digits of a rule number below 4^6, most significant first. -/
def d0 (j : Fin 4096) : Fin 4 := ⟨j.val / 1024, by have := j.isLt; omega⟩
def d1 (j : Fin 4096) : Fin 4 := ⟨j.val / 256 % 4, Nat.mod_lt _ (by decide)⟩
def d2 (j : Fin 4096) : Fin 4 := ⟨j.val / 64 % 4, Nat.mod_lt _ (by decide)⟩
def d3 (j : Fin 4096) : Fin 4 := ⟨j.val / 16 % 4, Nat.mod_lt _ (by decide)⟩
def d4 (j : Fin 4096) : Fin 4 := ⟨j.val / 4 % 4, Nat.mod_lt _ (by decide)⟩
def d5 (j : Fin 4096) : Fin 4 := ⟨j.val % 4, Nat.mod_lt _ (by decide)⟩

/-- The activation of rule `j` on sample `n`: the product of the six memberships its digits pick, bracketed from the right. -/
def activation (x : Memberships.Idx → Ideal .f32) (n : Fin 16384) (j : Fin 4096) : Ideal .f32 :=
  x (ix3 (0 : Fin 6) n (d0 j)) * (x (ix3 (1 : Fin 6) n (d1 j)) * (x (ix3 (2 : Fin 6) n (d2 j))
    * (x (ix3 (3 : Fin 6) n (d3 j)) * (x (ix3 (4 : Fin 6) n (d4 j)) * x (ix3 (5 : Fin 6) n (d5 j))))))

/-- All activations, as an array over (sample, rule). -/
def activations (x : Memberships.Idx → Ideal .f32) : Rules.Idx → Ideal .f32 :=
  fun i => activation x (i 0) (i 1)

/-- A product of six extended reals bracketed from the left is the one bracketed from the right: multiplication of
    extended reals is associative, infinities and zero included. -/
theorem left_eq_right (a b c d e f : EReal) : ((((a * b) * c) * d) * e) * f = a * (b * (c * (d * (e * f)))) := by
  simp only [mul_assoc]

end Cert.Antecedents

end
-- ==== Proof.KernelArray.lean ====
/-
  From the blocks to the whole array: the kernel's result is the array of all activations.

  The grid has 64 points. Point `t` is given rows `256 t … 256 t + 255` of every variable's plane of the membership array
  (a [6, 256, 4] block) and writes rows `256 t … 256 t + 255` of the result, all 4096 columns. By the block lemma, row `r` of
  what it writes is the six-fold product over row `r` of what it was given, that is over sample `256 t + r`; so the block written
  is block `t` of the array of activations. The 64 blocks tile the result's rows, so the result is that array.
-/
import proofs.«124794_j11647951306867_2_alg».proof.Proof.Gen.KernelIdeal.Frame
import proofs.«124794_j11647951306867_2_alg».proof.Proof.KernelRow
import proofs.«124794_j11647951306867_2_alg».proof.Proof.Spec
import Idealize.ShloMosaic.Lib.Pipeline.Value

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.Antecedents
open Idealize.ShloMosaic.Pipeline (Dat)

variable (m : (ℓ : Loc nD τ sig) → Buf (Elt Ideal) ℓ) (ρ : Dev nD → PrngReg)

/-- The two index maps over the 64 grid points: the input block sits at (0, t', 0) and the output block at (t', 0) for one
    and the same row-block number `t' ≤ 63`. -/
theorem idx_facts : ∀ t : Fin cfg0.N, win0_0.index t (0 : Fin 3) = 0
    ∧ win0_0.index t (1 : Fin 3) = win0_1.index t (0 : Fin 2)
    ∧ win0_0.index t (2 : Fin 3) = 0
    ∧ win0_1.index t (1 : Fin 2) = 0
    ∧ win0_1.index t (0 : Fin 2) ≤ 63 :=
  (by decide +kernel : ∀ t : Fin grid0.N, _)

/-- Every one of the 64 row blocks of the result is some point's. -/
theorem idx_onto : ∀ q : Fin 64, ∃ t : Fin cfg0.N, win0_1.index t = ![q.val, 0] :=
  (by decide +kernel : ∀ q : Fin 64, ∃ t : Fin grid0.N, win0_1.index t = ![q.val, 0])

/-- Row `r` of point `t`'s block is a row of the array. -/
theorem row_lt (t : Fin cfg0.N) (r : Fin 256) : win0_1.index t (0 : Fin 2) * 256 + r.val < 16384 := by
  obtain ⟨-, -, -, -, e4⟩ := idx_facts t
  have := r.isLt
  omega

/-- Entry (v, r, s) of the block point `t` is given is the array's entry (v, 256 t' + r, s). -/
theorem given_apply (A : S6x16384x4.Idx → Ideal .f32) (t : Fin cfg0.N) (v : Fin 6) (r : Fin 256) (s s' : Fin 4)
    (hs : s.val = s'.val) :
    A (((cfg0.win 0).blk t).view.emb (ix3 v r s))
      = A (ix3 v (⟨win0_1.index t (0 : Fin 2) * 256 + r.val, row_lt t r⟩ : Fin 16384) s') := by
  obtain ⟨e0, e1, e2, e3, e4⟩ := idx_facts t
  refine congrArg A (funext fun a => Fin.ext ?_)
  match a with
  | ⟨0, _⟩ => show win0_0.index t (0 : Fin 3) * 6 + 1 * v.val = v.val; omega
  | ⟨1, _⟩ => show win0_0.index t (1 : Fin 3) * 256 + 1 * r.val = win0_1.index t (0 : Fin 2) * 256 + r.val; omega
  | ⟨2, _⟩ => show win0_0.index t (2 : Fin 3) * 4 + 1 * s.val = s'.val; omega

/-- What point `t` writes back is block `t` of the array of activations of the membership array as the region finds it. -/
theorem flushed_eq (c : Dev nD) (t : Fin cfg0.N) :
    (dats m 0 c).flushed 1 t = ((cfg0.win 1).blk t).view.read (Elt Ideal) (activations (V m c main_arg0)) := by
  show (cfg0.win 1).cut (grid0.coords t) ((dats m 0 c).after 1 t) = _
  rw [after0_1]
  obtain ⟨e0, e1, e2, e3, e4⟩ := idx_facts t
  funext y
  obtain ⟨r, j, rfl⟩ : ∃ (r : Fin 256) (j : Fin 4096), y = ix2 r j := ⟨y 0, y 1, eq_ix2 (n0 := 256) (n1 := 4096) y⟩
  have hj := j.isLt
  -- the block index (r, j) sits at (256 t' + r, j) of the array
  have hemb : ((cfg0.win 1).blk t).view.emb (ix2 r j)
      = ix2 (⟨win0_1.index t (0 : Fin 2) * 256 + r.val, row_lt t r⟩ : Fin 16384) j := by
    funext a
    apply Fin.ext
    match a with
    | ⟨0, _⟩ => show win0_1.index t (0 : Fin 2) * 256 + 1 * r.val = win0_1.index t (0 : Fin 2) * 256 + r.val; omega
    | ⟨1, _⟩ => show win0_1.index t (1 : Fin 2) * 4096 + 1 * j.val = j.val; omega
  show out0_1 (iblk m c 0 t) (ix2 r j) = activations (V m c main_arg0) (((cfg0.win 1).blk t).view.emb (ix2 r j))
  rw [hemb]
  refine (Block.out_apply (iblk m c 0 t) r j).trans ?_
  show _ = activation (V m c main_arg0) (⟨win0_1.index t (0 : Fin 2) * 256 + r.val, row_lt t r⟩ : Fin 16384) j
  unfold activation
  -- factor by factor: the block's row is the array's, and the two spellings of each base-4 digit agree
  exact congrArg₂ (· * ·) (given_apply (V m c main_arg0) t 0 r _ (d0 j) (show j.val / 1024 = j.val / 1024 from rfl))
    (congrArg₂ (· * ·) (given_apply (V m c main_arg0) t 1 r _ (d1 j) (show j.val % 1024 / 256 = j.val / 256 % 4 by omega))
    (congrArg₂ (· * ·) (given_apply (V m c main_arg0) t 2 r _ (d2 j) (show j.val % 1024 % 256 / 64 = j.val / 64 % 4 by omega))
    (congrArg₂ (· * ·) (given_apply (V m c main_arg0) t 3 r _ (d3 j) (show j.val % 1024 % 256 % 64 / 16 = j.val / 16 % 4 by omega))
    (congrArg₂ (· * ·) (given_apply (V m c main_arg0) t 4 r _ (d4 j) (show j.val % 1024 % 256 % 64 % 16 / 4 = j.val / 4 % 4 by omega))
      (given_apply (V m c main_arg0) t 5 r _ (d5 j) (show j.val % 1024 % 256 % 64 % 16 % 4 = j.val % 4 by omega))))))

/-- An index of the result is in point `t`'s block iff each coordinate is in the block's range on its axis. -/
theorem mem_blk (t : Fin cfg0.N) (i : S16384x4096.Idx) :
    i ∈ ((cfg0.win 1).blk t).view.set ↔ ∀ a : Fin 2, win0_1.index t a * S256x4096.size a ≤ (i a).val
      ∧ (i a).val < win0_1.index t a * S256x4096.size a + S256x4096.size a := by
  show i ∈ ((View.whole main_v0).slice (win0_1.rect t)).set ↔ _
  rw [View.set_slice_whole, Rect.mem_set_unit]
  exact Iff.rfl

/-- Every index of the result is in some point's block: row `n` is in row block `n / 256`. -/
theorem cover (i : S16384x4096.Idx) :
    ∃ t : Fin cfg0.N, (cfg0.win 1).flush t = true ∧ i ∈ ((cfg0.win 1).blk t).view.set := by
  have hi0 : (i 0).val < 16384 := (i 0).isLt
  have hi1 : (i 1).val < 4096 := (i 1).isLt
  obtain ⟨t, ht⟩ := idx_onto ⟨(i 0).val / 256, by omega⟩
  have q0 : win0_1.index t (0 : Fin 2) = (i 0).val / 256 := congrFun ht 0
  have q1 : win0_1.index t (1 : Fin 2) = 0 := congrFun ht 1
  refine ⟨t, flush0_1 t, ?_⟩
  rw [mem_blk]
  intro a
  match a with
  | ⟨0, _⟩ =>
    show win0_1.index t (0 : Fin 2) * 256 ≤ (i 0).val ∧ (i 0).val < win0_1.index t (0 : Fin 2) * 256 + 256
    omega
  | ⟨1, _⟩ =>
    show win0_1.index t (1 : Fin 2) * 4096 ≤ (i 1).val ∧ (i 1).val < win0_1.index t (1 : Fin 2) * 4096 + 4096
    omega

/-- The result array after the run is the array of activations of the membership argument. -/
theorem final (c : Dev nD) :
    (dats m 0 c).arrAt 1 cfg0.N = activations (m ((c : Thread nD τ).loc main_arg0)) :=
  (dats m 0 c).arrAt_eq_of_cover 1 (activations (V m c main_arg0)) (fun t _ => flushed_eq m c t) cover

/-- The kernel's run: every weakly fair execution ends, without a fault, with the result at the array of activations of the
    membership argument and that argument unchanged. -/
theorem run : θ_run defs (onTc (τ := τ) (main (F := Ideal))) ⟨m, fun _ => 0, ρ⟩ fun r => ∀ c : Dev nD,
      r.2.mem ((c : Thread nD τ).loc main_v0) = activations (m ((c : Thread nD τ).loc main_arg0))
      ∧ r.2.mem ((c : Thread nD τ).loc main_arg0) = m ((c : Thread nD τ).loc main_arg0) :=
  (θ_run defs _ _).mono (fun r h c => ⟨((h c).1 1).trans (final m c),
      ((h c).1 0).trans (((dats m 0 c).arrAt_in 0 rfl _).trans ((A_eq m c 0).trans (V_main_arg0 m c)))⟩)
    (run_main m ρ)

end Cert.KernelIdeal.Whole

end
-- ==== Proof.RefRow.lean ====
/-
  One row of the reference's result, read at a column.

  The reference starts from variable 0's memberships (four columns) and, for variables 1 to 5 in turn, forms all products
  of a running entry with one of the variable's four memberships and flattens the pair (running column, set) into one
  column, the set varying fastest: entry `(n, j)` of the new matrix is the running entry `(n, j / 4)` times the variable's
  membership `(n, j % 4)`. Five such rounds take 4 columns to 4096, and peeling quotients by four gives the entry as
  `((((p0 (j/4/4/4/4/4) * p1 (j/4/4/4/4 % 4)) * p2 (j/4/4/4 % 4)) * p3 (j/4/4 % 4)) * p4 (j/4 % 4)) * p5 (j % 4)`.
-/
import proofs.«124794_j11647951306867_2_alg».proof.Proof.Gen.ReferenceIdeal.Read
import Idealize.ShloMosaic.PureOps.Ideal
import Idealize.ShloMosaic.Lib.ValueIdx

noncomputable section

namespace Cert.ReferenceIdeal.Row

open Cert.ReferenceIdeal Cert.ReferenceIdeal.Read Idealize.ShloMosaic Idealize.ShloMosaic.ValueIdx

variable (x : S6x16384x4.Idx → Ideal .f32)

/-! ## A variable's memberships as a matrix over (sample, set) -/

/-- Variable 0's plane, cut out of the array and flattened, at (n, s) is the array at (0, n, s). -/
theorem plane0 (n : Fin 16384) (s : Fin 4) : val_main_v1 (F := Ideal) x (ix2 n s) = x (ix3 (0 : Fin 6) n s) := by
  have hn := n.isLt; have hs := s.isLt
  rw [val_main_v1_apply, val_main_v0_apply]
  refine congrArg x ?_
  funext a
  match a with
  | ⟨0, _⟩ => exact Fin.ext rfl
  | ⟨1, _⟩ => exact Fin.ext (show (n.val * 4 + s.val) / 4 % 16384 = n.val by omega)
  | ⟨2, _⟩ => exact Fin.ext (show (n.val * 4 + s.val) % 4 = s.val by omega)

/-- Variable 1's plane, cut out of the array and flattened, at (n, s) is the array at (1, n, s). -/
theorem plane1 (n : Fin 16384) (s : Fin 4) : val_main_v4 (F := Ideal) x (ix2 n s) = x (ix3 (1 : Fin 6) n s) := by
  have hn := n.isLt; have hs := s.isLt
  rw [val_main_v4_apply, val_main_v3_apply]
  refine congrArg x ?_
  funext a
  match a with
  | ⟨0, _⟩ => exact Fin.ext rfl
  | ⟨1, _⟩ => exact Fin.ext (show (n.val * 4 + s.val) / 4 % 16384 = n.val by omega)
  | ⟨2, _⟩ => exact Fin.ext (show (n.val * 4 + s.val) % 4 = s.val by omega)

/-- Variable 2's plane, cut out of the array and flattened, at (n, s) is the array at (2, n, s). -/
theorem plane2 (n : Fin 16384) (s : Fin 4) : val_main_v12 (F := Ideal) x (ix2 n s) = x (ix3 (2 : Fin 6) n s) := by
  have hn := n.isLt; have hs := s.isLt
  rw [val_main_v12_apply, val_main_v11_apply]
  refine congrArg x ?_
  funext a
  match a with
  | ⟨0, _⟩ => exact Fin.ext rfl
  | ⟨1, _⟩ => exact Fin.ext (show (n.val * 4 + s.val) / 4 % 16384 = n.val by omega)
  | ⟨2, _⟩ => exact Fin.ext (show (n.val * 4 + s.val) % 4 = s.val by omega)

/-- Variable 3's plane, cut out of the array and flattened, at (n, s) is the array at (3, n, s). -/
theorem plane3 (n : Fin 16384) (s : Fin 4) : val_main_v20 (F := Ideal) x (ix2 n s) = x (ix3 (3 : Fin 6) n s) := by
  have hn := n.isLt; have hs := s.isLt
  rw [val_main_v20_apply, val_main_v19_apply]
  refine congrArg x ?_
  funext a
  match a with
  | ⟨0, _⟩ => exact Fin.ext rfl
  | ⟨1, _⟩ => exact Fin.ext (show (n.val * 4 + s.val) / 4 % 16384 = n.val by omega)
  | ⟨2, _⟩ => exact Fin.ext (show (n.val * 4 + s.val) % 4 = s.val by omega)

/-- Variable 4's plane, cut out of the array and flattened, at (n, s) is the array at (4, n, s). -/
theorem plane4 (n : Fin 16384) (s : Fin 4) : val_main_v28 (F := Ideal) x (ix2 n s) = x (ix3 (4 : Fin 6) n s) := by
  have hn := n.isLt; have hs := s.isLt
  rw [val_main_v28_apply, val_main_v27_apply]
  refine congrArg x ?_
  funext a
  match a with
  | ⟨0, _⟩ => exact Fin.ext rfl
  | ⟨1, _⟩ => exact Fin.ext (show (n.val * 4 + s.val) / 4 % 16384 = n.val by omega)
  | ⟨2, _⟩ => exact Fin.ext (show (n.val * 4 + s.val) % 4 = s.val by omega)

/-- Variable 5's plane, cut out of the array and flattened, at (n, s) is the array at (5, n, s). -/
theorem plane5 (n : Fin 16384) (s : Fin 4) : val_main_v36 (F := Ideal) x (ix2 n s) = x (ix3 (5 : Fin 6) n s) := by
  have hn := n.isLt; have hs := s.isLt
  rw [val_main_v36_apply, val_main_v35_apply]
  refine congrArg x ?_
  funext a
  match a with
  | ⟨0, _⟩ => exact Fin.ext rfl
  | ⟨1, _⟩ => exact Fin.ext (show (n.val * 4 + s.val) / 4 % 16384 = n.val by omega)
  | ⟨2, _⟩ => exact Fin.ext (show (n.val * 4 + s.val) % 4 = s.val by omega)

/-! ## One round: all products with the next variable's memberships, the set varying fastest -/

/-- Round 1 (4 columns to 16): entry (n, j) is the running entry (n, j / 4) times variable 1's membership (n, j % 4). -/
theorem round1 (n : Fin 16384) (j : Fin 16) :
    val_main_v9 (F := Ideal) x (ix2 n j)
      = val_main_v1 (F := Ideal) x (ix2 n ⟨j.val / 4, by have := j.isLt; omega⟩)
        * val_main_v4 (F := Ideal) x (ix2 n ⟨j.val % 4, Nat.mod_lt _ (by decide)⟩) := by
  have hn := n.isLt; have hj := j.isLt
  rw [val_main_v9_apply, val_main_v8_apply, val_main_v6_apply, val_main_v7_apply, val_main_v2_apply,
    val_main_v5_apply, Ideal.mulf_def]
  refine congrArg₂ (· * ·) (congrArg _ ?_) (congrArg _ ?_)
  · funext a
    match a with
    | ⟨0, _⟩ => exact Fin.ext (show (n.val * 16 + j.val) / 16 = n.val by omega)
    | ⟨1, _⟩ => exact Fin.ext (show (n.val * 16 + j.val) / 4 % 4 = j.val / 4 by omega)
  · funext a
    match a with
    | ⟨0, _⟩ => exact Fin.ext (show (n.val * 16 + j.val) / 16 = n.val by omega)
    | ⟨1, _⟩ => exact Fin.ext (show (n.val * 16 + j.val) % 4 = j.val % 4 by omega)

/-- Round 2 (16 columns to 64): entry (n, j) is the running entry (n, j / 4) times variable 2's membership (n, j % 4). -/
theorem round2 (n : Fin 16384) (j : Fin 64) :
    val_main_v17 (F := Ideal) x (ix2 n j)
      = val_main_v9 (F := Ideal) x (ix2 n ⟨j.val / 4, by have := j.isLt; omega⟩)
        * val_main_v12 (F := Ideal) x (ix2 n ⟨j.val % 4, Nat.mod_lt _ (by decide)⟩) := by
  have hn := n.isLt; have hj := j.isLt
  rw [val_main_v17_apply, val_main_v16_apply, val_main_v14_apply, val_main_v15_apply, val_main_v10_apply,
    val_main_v13_apply, Ideal.mulf_def]
  refine congrArg₂ (· * ·) (congrArg _ ?_) (congrArg _ ?_)
  · funext a
    match a with
    | ⟨0, _⟩ => exact Fin.ext (show (n.val * 64 + j.val) / 64 = n.val by omega)
    | ⟨1, _⟩ => exact Fin.ext (show (n.val * 64 + j.val) / 4 % 16 = j.val / 4 by omega)
  · funext a
    match a with
    | ⟨0, _⟩ => exact Fin.ext (show (n.val * 64 + j.val) / 64 = n.val by omega)
    | ⟨1, _⟩ => exact Fin.ext (show (n.val * 64 + j.val) % 4 = j.val % 4 by omega)

/-- Round 3 (64 columns to 256): entry (n, j) is the running entry (n, j / 4) times variable 3's membership (n, j % 4). -/
theorem round3 (n : Fin 16384) (j : Fin 256) :
    val_main_v25 (F := Ideal) x (ix2 n j)
      = val_main_v17 (F := Ideal) x (ix2 n ⟨j.val / 4, by have := j.isLt; omega⟩)
        * val_main_v20 (F := Ideal) x (ix2 n ⟨j.val % 4, Nat.mod_lt _ (by decide)⟩) := by
  have hn := n.isLt; have hj := j.isLt
  rw [val_main_v25_apply, val_main_v24_apply, val_main_v22_apply, val_main_v23_apply, val_main_v18_apply,
    val_main_v21_apply, Ideal.mulf_def]
  refine congrArg₂ (· * ·) (congrArg _ ?_) (congrArg _ ?_)
  · funext a
    match a with
    | ⟨0, _⟩ => exact Fin.ext (show (n.val * 256 + j.val) / 256 = n.val by omega)
    | ⟨1, _⟩ => exact Fin.ext (show (n.val * 256 + j.val) / 4 % 64 = j.val / 4 by omega)
  · funext a
    match a with
    | ⟨0, _⟩ => exact Fin.ext (show (n.val * 256 + j.val) / 256 = n.val by omega)
    | ⟨1, _⟩ => exact Fin.ext (show (n.val * 256 + j.val) % 4 = j.val % 4 by omega)

/-- Round 4 (256 columns to 1024): entry (n, j) is the running entry (n, j / 4) times variable 4's membership (n, j % 4). -/
theorem round4 (n : Fin 16384) (j : Fin 1024) :
    val_main_v33 (F := Ideal) x (ix2 n j)
      = val_main_v25 (F := Ideal) x (ix2 n ⟨j.val / 4, by have := j.isLt; omega⟩)
        * val_main_v28 (F := Ideal) x (ix2 n ⟨j.val % 4, Nat.mod_lt _ (by decide)⟩) := by
  have hn := n.isLt; have hj := j.isLt
  rw [val_main_v33_apply, val_main_v32_apply, val_main_v30_apply, val_main_v31_apply, val_main_v26_apply,
    val_main_v29_apply, Ideal.mulf_def]
  refine congrArg₂ (· * ·) (congrArg _ ?_) (congrArg _ ?_)
  · funext a
    match a with
    | ⟨0, _⟩ => exact Fin.ext (show (n.val * 1024 + j.val) / 1024 = n.val by omega)
    | ⟨1, _⟩ => exact Fin.ext (show (n.val * 1024 + j.val) / 4 % 256 = j.val / 4 by omega)
  · funext a
    match a with
    | ⟨0, _⟩ => exact Fin.ext (show (n.val * 1024 + j.val) / 1024 = n.val by omega)
    | ⟨1, _⟩ => exact Fin.ext (show (n.val * 1024 + j.val) % 4 = j.val % 4 by omega)

/-- Round 5 (1024 columns to 4096): entry (n, j) is the running entry (n, j / 4) times variable 5's membership (n, j % 4). -/
theorem round5 (n : Fin 16384) (j : Fin 4096) :
    val_main_v41 (F := Ideal) x (ix2 n j)
      = val_main_v33 (F := Ideal) x (ix2 n ⟨j.val / 4, by have := j.isLt; omega⟩)
        * val_main_v36 (F := Ideal) x (ix2 n ⟨j.val % 4, Nat.mod_lt _ (by decide)⟩) := by
  have hn := n.isLt; have hj := j.isLt
  rw [val_main_v41_apply, val_main_v40_apply, val_main_v38_apply, val_main_v39_apply, val_main_v34_apply,
    val_main_v37_apply, Ideal.mulf_def]
  refine congrArg₂ (· * ·) (congrArg _ ?_) (congrArg _ ?_)
  · funext a
    match a with
    | ⟨0, _⟩ => exact Fin.ext (show (n.val * 4096 + j.val) / 4096 = n.val by omega)
    | ⟨1, _⟩ => exact Fin.ext (show (n.val * 4096 + j.val) / 4 % 1024 = j.val / 4 by omega)
  · funext a
    match a with
    | ⟨0, _⟩ => exact Fin.ext (show (n.val * 4096 + j.val) / 4096 = n.val by omega)
    | ⟨1, _⟩ => exact Fin.ext (show (n.val * 4096 + j.val) % 4 = j.val % 4 by omega)

/-! ## The whole row -/

/-- Entry (n, j) of the reference's result: the six memberships picked by peeling quotients by four, bracketed from the left. -/
theorem result_apply (n : Fin 16384) (j : Fin 4096) :
    val_main_v41 (F := Ideal) x (ix2 n j)
      = ((((x (ix3 (0 : Fin 6) n ⟨j.val / 4 / 4 / 4 / 4 / 4, by have := j.isLt; omega⟩)
            * x (ix3 (1 : Fin 6) n ⟨j.val / 4 / 4 / 4 / 4 % 4, Nat.mod_lt _ (by decide)⟩))
          * x (ix3 (2 : Fin 6) n ⟨j.val / 4 / 4 / 4 % 4, Nat.mod_lt _ (by decide)⟩))
        * x (ix3 (3 : Fin 6) n ⟨j.val / 4 / 4 % 4, Nat.mod_lt _ (by decide)⟩))
      * x (ix3 (4 : Fin 6) n ⟨j.val / 4 % 4, Nat.mod_lt _ (by decide)⟩))
    * x (ix3 (5 : Fin 6) n ⟨j.val % 4, Nat.mod_lt _ (by decide)⟩) := by
  rw [round5, round4, round3, round2, round1, plane0, plane1, plane2, plane3, plane4, plane5]

end Cert.ReferenceIdeal.Row

end
-- ==== Proof.RefWhole.lean ====
/-
  The reference's result is the array of all activations.

  Entry (n, j) of the reference's result is the product of the six memberships picked by the quotients of `j` by powers of
  four, bracketed from the left; the activation brackets the same six from the right and spells the digits by one quotient and
  one remainder each. Associativity of the product and arithmetic on the digits join the two.
-/
import proofs.«124794_j11647951306867_2_alg».proof.Proof.RefRow
import proofs.«124794_j11647951306867_2_alg».proof.Proof.Spec

noncomputable section

namespace Cert.ReferenceIdeal.Whole

open Cert.ReferenceIdeal Cert.ReferenceIdeal.Read Idealize.ShloMosaic Idealize.ShloMosaic.ValueIdx Cert.Antecedents

/-- One membership, picked with a set number spelt two ways. -/
theorem pick (x : S6x16384x4.Idx → Ideal .f32) (v : Fin 6) (n : Fin 16384) (s s' : Fin 4) (h : s.val = s'.val) :
    x (ix3 v n s) = x (ix3 v n s') := by rw [Fin.ext h]

/-- The reference's last stage is the array of activations of its argument. -/
theorem result_eq (x : S6x16384x4.Idx → Ideal .f32) : val_main_v41 (F := Ideal) x = activations x := by
  funext i
  obtain ⟨n, j, rfl⟩ : ∃ (n : Fin 16384) (j : Fin 4096), i = ix2 n j := ⟨i 0, i 1, eq_ix2 (n0 := 16384) (n1 := 4096) i⟩
  have hj := j.isLt
  rw [Row.result_apply, left_eq_right]
  show _ = activation x n j
  unfold activation
  exact congrArg₂ (· * ·) (pick x 0 n _ (d0 j) (show j.val / 4 / 4 / 4 / 4 / 4 = j.val / 1024 by omega))
    (congrArg₂ (· * ·) (pick x 1 n _ (d1 j) (show j.val / 4 / 4 / 4 / 4 % 4 = j.val / 256 % 4 by omega))
    (congrArg₂ (· * ·) (pick x 2 n _ (d2 j) (show j.val / 4 / 4 / 4 % 4 = j.val / 64 % 4 by omega))
    (congrArg₂ (· * ·) (pick x 3 n _ (d3 j) (show j.val / 4 / 4 % 4 = j.val / 16 % 4 by omega))
    (congrArg₂ (· * ·) (pick x 4 n _ (d4 j) (show j.val / 4 % 4 = j.val / 4 % 4 from rfl))
      (pick x 5 n _ (d5 j) (show j.val % 4 = j.val % 4 from rfl))))))

end Cert.ReferenceIdeal.Whole

end
-- ==== Proof.lean ====
/-
  Fuzzy rule activations: the product, over six variables, of one membership per variable.

  The input is an array `x v n s` of memberships (6 variables, 16384 samples, 4 fuzzy sets per variable). Rule `j < 4096 = 4^6`
  picks, for variable `v`, the set numbered by the base-4 digit of `j` at place `v` (variable 0 most significant), and the
  result holds, at (sample `n`, rule `j`), the product of the six memberships picked (`Cert.Antecedents.activations`).

  The kernel works on 256 samples at a time. It starts from variable 5's four columns and, for variables 4, 3, 2, 1, 0 in
  turn, lays four row-scaled copies of the running matrix side by side, so that column `j` of the final 4096 is reached by
  peeling `j / 1024`, `j % 1024 / 256`, …, and the product comes out bracketed from the right. The reference starts from
  variable 0 and, for variables 1 to 5 in turn, multiplies every running entry with each of the variable's four memberships
  and flattens, the new set number varying fastest, so the digits come out as `j / 4 / 4 / 4 / 4 / 4`, …, `j / 4 % 4`,
  `j % 4` and the product bracketed from the left. The two spellings of each digit agree by arithmetic and the two
  bracketings by associativity of multiplication on the extended reals, which holds with infinities and zero present: so
  nothing in the argument uses that the inputs are finite.

  The kernel's 64 blocks tile the rows of the result, so the array it leaves is the array of activations
  (`Cert.KernelIdeal.Whole.run`, over the generated frame run); the reference's run is generated, and its last stage is
  the same array (`Cert.ReferenceIdeal.Whole.result_eq`). The idealization rewrote nothing in the kernel, so that conjunct
  is trivial; the three frames are the generated ones, the reference's being its run with the result dropped.
-/
import proofs.«124794_j11647951306867_2_alg».proof.Defs
import proofs.«124794_j11647951306867_2_alg».proof.Proof.Gen.Kernel
import proofs.«124794_j11647951306867_2_alg».proof.Proof.Gen.Kernel.Skeleton
import proofs.«124794_j11647951306867_2_alg».proof.Proof.Gen.Kernel.Launch
import proofs.«124794_j11647951306867_2_alg».proof.Proof.Gen.Kernel.Points
import proofs.«124794_j11647951306867_2_alg».proof.Proof.Gen.Kernel.Frame
import proofs.«124794_j11647951306867_2_alg».proof.Proof.Gen.KernelIdeal
import proofs.«124794_j11647951306867_2_alg».proof.Proof.Gen.KernelIdeal.Skeleton
import proofs.«124794_j11647951306867_2_alg».proof.Proof.Gen.KernelIdeal.Launch
import proofs.«124794_j11647951306867_2_alg».proof.Proof.Gen.KernelIdeal.Points
import proofs.«124794_j11647951306867_2_alg».proof.Proof.Gen.KernelIdeal.Frame
import proofs.«124794_j11647951306867_2_alg».proof.Proof.Gen.ReferenceIdeal
import proofs.«124794_j11647951306867_2_alg».proof.Proof.Gen.Pre_finite_inputs
import proofs.«124794_j11647951306867_2_alg».proof.Proof.Gen.ReferenceIdeal.Run
import proofs.«124794_j11647951306867_2_alg».proof.Proof.Gen.ReferenceIdeal.Read
import proofs.«124794_j11647951306867_2_alg».proof.Proof.KernelArray
import proofs.«124794_j11647951306867_2_alg».proof.Proof.RefWhole
import Idealize.ShloMosaic.Adequacy
import Idealize.ShloMosaic.Init

noncomputable section

namespace Cert.Proof

open Idealize.ShloMosaic Idealize.ShloMosaic.TcCoe Idealize.SL.Sem

/-- The kernel as printed runs and leaves its argument as it was. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals, from memories that agree on the membership array, both programs end with the result at the
    array of activations of that array. -/
theorem algebraic : Cert.algebraic_KernelIdeal_ReferenceIdeal := by
  intro m ρ m' ρ' _ hagree
  refine ⟨fun c => Cert.Antecedents.activations
      (m ((c.tc : Thread Cert.KernelIdeal.nD Cert.KernelIdeal.τ).loc Cert.KernelIdeal.main_arg0)),
    Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v41_eq, Cert.ReferenceIdeal.Whole.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
